-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64 : Shape := ⟨2, ![2048, 64]⟩
abbrev S_ : Shape := ⟨0, ![]⟩

class Facts : Prop where
  bcast_S_S2048x64 : S_.BroadcastsInDim S2048x64 (![] : Fin 0 → Fin S2048x64.rank)
  reducesTo_S2048x64_S_d0_1 : S2048x64.ReducesTo [0, 1] S_
  h_S_ : 0 < S_.numel

variable [Facts]

def fn {F : FTy → Type} [FloatOps F] (main_arg0 : FVec F S2048x64 .f32) (main_arg1 : FVec F S2048x64 .f32) : IVec S_ 1 :=
  let main_v0 : FVec F S2048x64 .f32 := Host.absf main_arg0
  let main_cst : FVec F S_ .f32 := constant S_ .f32 0x7F800000#32
  let main_v1 : FVec F S2048x64 .f32 := broadcastInDim S2048x64 ![] bcast_S_S2048x64 main_cst
  let main_v2 : IVec S2048x64 1 := cmpf .olt main_v0 main_v1
  let main_c : IVec S_ 1 := constantI S_ 1 1#1
  let main_v3 : IVec S_ 1 := (fun x v => Host.reduce IntOp.andi x v reducesTo_S2048x64_S_d0_1 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  main_v8
-- ==== Kernel.lean ====
abbrev S2048x64 : Shape := ⟨2, ![2048, 64]⟩
abbrev S2048x2048 : Shape := ⟨2, ![2048, 2048]⟩
abbrev S512x64 : Shape := ⟨2, ![512, 64]⟩
abbrev S512x512 : Shape := ⟨2, ![512, 512]⟩
abbrev S512 : Shape := ⟨1, ![512]⟩
abbrev S512x1 : Shape := ⟨2, ![512, 1]⟩
abbrev S1x512 : Shape := ⟨2, ![1, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x64, .f32⟩
  | .hbm, ⟨1, _⟩ => ⟨S2048x64, .f32⟩
  | .hbm, ⟨2, _⟩ => ⟨S2048x2048, .f32⟩
  | .local _ .vmem, ⟨0, _⟩ => ⟨S512x64, .f32⟩
  | .local _ .vmem, ⟨1, _⟩ => ⟨S512x64, .f32⟩
  | .local _ .vmem, ⟨2, _⟩ => ⟨S512x64, .f32⟩
  | .local _ .vmem, ⟨3, _⟩ => ⟨S512x64, .f32⟩
  | .local _ .vmem, ⟨4, _⟩ => ⟨S512x512, .f32⟩
  | .local _ .vmem, ⟨5, _⟩ => ⟨S512x512, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S512x64_S512x64_0_0 : ∀ a, (![0, 0] : Fin 2 → Nat) a + S512x64.size a ≤ S512x64.size a
  h_S512x64 : 0 < S512x64.numel
  reduces_S512x64_S512 : S512x64.Reduces [1] S512
  shapeCasts_S512_S512x1 : S512.ShapeCasts S512x1
  transposes_S512x1_p1_0_S1x512 : S512x1.Transposes [1, 0] S1x512
  broadcasts_S512x1_S512x512 : S512x1.Broadcasts S512x512
  broadcasts_S1x512_S512x512 : S1x512.Broadcasts S512x512
  inb_S512x512_S512x512_0_0 : ∀ a, (![0, 0] : Fin 2 → Nat) a + S512x512.size a ≤ S512x512.size a
  h_S512x512 : 0 < S512x512.numel
  dot_S512x64_S512x64_S512x512_1_1_0_0_n_n_wf : DotDims.WF S512x64 S512x64 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S2048x64.size a
  hwx0_0 : ∀ i : grid0.Coords, EltTy.bits .f32 = 32 ∨ (Rect.block (s := S2048x64) S512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S2048x64.size a
  hwx0_1 : ∀ i : grid0.Coords, EltTy.bits .f32 = 32 ∨ (Rect.block (s := S2048x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S2048x2048.size a
  hwx0_2 : ∀ i : grid0.Coords, EltTy.bits .f32 = 32 ∨ (Rect.block (s := S2048x2048) S512x512.size (cc0_transform_2 i) (hinb0_2 i)).WholeWords (EltTy.packing .f32)

variable [Facts₀]

def dot_S512x64_S512x64_S512x512_1_1_0_0_n_n : DotDims S512x64 S512x64 S512x512 where
  lhsContracting := [1]
  rhsContracting := [1]
  lhsNonContracting := [0]
  rhsNonContracting := [0]
  lhsBatch := []
  rhsBatch := []
  wf := dot_S512x64_S512x64_S512x512_1_1_0_0_n_n_wf

abbrev win0_0 : Pipeline.Window sig grid0 :=
  Pipeline.Window.ofSpec (Memref.whole main_arg0) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x64 : Shape := ⟨2, ![2048, 64]⟩
abbrev S2048x1x64 : Shape := ⟨3, ![2048, 1, 64]⟩
abbrev S1x2048x64 : Shape := ⟨3, ![1, 2048, 64]⟩
abbrev S2048x2048x64 : Shape := ⟨3, ![2048, 2048, 64]⟩
abbrev S_ : Shape := ⟨0, ![]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S2048x64, .f32⟩
  | .hbm, ⟨2, _⟩ => ⟨S2048x1x64, .f32⟩
  | .hbm, ⟨3, _⟩ => ⟨S1x2048x64, .f32⟩
  | .hbm, ⟨4, _⟩ => ⟨S2048x2048x64, .f32⟩
  | .hbm, ⟨5, _⟩ => ⟨S2048x2048x64, .f32⟩
  | .hbm, ⟨6, _⟩ => ⟨S2048x2048x64, .f32⟩
  | .hbm, ⟨7, _⟩ => ⟨S2048x2048x64, .f32⟩
  | .hbm, ⟨8, _⟩ => ⟨S_, .f32⟩
  | .hbm, ⟨9, _⟩ => ⟨S2048x2048, .f32⟩
  | .hbm, ⟨10, _⟩ => ⟨S2048x2048, .f32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  bcast_S2048x64_S2048x1x64_0_2 : S2048x64.BroadcastsInDim S2048x1x64 (![0, 2] : Fin 2 → Fin S2048x1x64.rank)
  bcast_S2048x64_S1x2048x64_1_2 : S2048x64.BroadcastsInDim S1x2048x64 (![1, 2] : Fin 2 → Fin S1x2048x64.rank)
  bcast_S2048x1x64_S2048x2048x64_0_1_2 : S2048x1x64.BroadcastsInDim S2048x2048x64 (![0, 1, 2] : Fin 3 → Fin S2048x2048x64.rank)
  bcast_S1x2048x64_S2048x2048x64_0_1_2 : S1x2048x64.BroadcastsInDim S2048x2048x64 (![0, 1, 2] : Fin 3 → Fin S2048x2048x64.rank)
  reducesTo_S2048x2048x64_S2048x2048_d2 : S2048x2048x64.ReducesTo [2] S2048x2048
  h_S_ : 0 < S_.numel

variable [Facts₀]

class Facts : Prop extends Facts₀ where

variable [Facts]
-- ==== Proof.SqDist.lean ====
/-
  The mathematics of this certificate, stated over no program.

  Both programs compute the matrix of Euclidean distances between the rows of two arrays `x`, `y` of 2048 rows
  and 64 columns: entry `(i, j)` is `√(Σ_k (x i k − y j k)²)` (`pairDist`). One program sums the squared
  differences as written; the other expands the square, `‖x i‖² + ‖y j‖² − 2·⟨x i, y j⟩`, clamps the result at
  zero and takes the root. Over the reals the expansion is exact and the sum of squares is nonnegative, so the clamp
  does nothing (`gram_eq`). Over the extended reals the expansion is NOT an identity (at an infinite entry the
  difference `∞ − ∞` and the product rule for sums both fail), which is why the law is stated for rows whose
  entries are real numbers.
-/
import Idealize.ShloMosaic.PureOps.Ideal
import Idealize.ShloMosaic.PureOps.Ideal.Laws
import Idealize.ShloMosaic.Lib.ValueIdx

noncomputable section

namespace Cert.SqDist

open Idealize.ShloMosaic Idealize.ShloMosaic.ValueIdx

/-- Entry `(i, j)` of the distance matrix of the rows of `x` and `y`: the root of the sum over the 64 columns
    of the squared differences. -/
def pairDist (x y : (⟨2, ![2048, 64]⟩ : Shape).Idx → EReal) : (⟨2, ![2048, 2048]⟩ : Shape).Idx → EReal :=
  fun i => Ideal.sqrt (∑ k : Fin 64, (x (ix2 (i 0) k) - y (ix2 (i 1) k)) * (x (ix2 (i 0) k) - y (ix2 (i 1) k)))

/-- The inclusion of the reals in the extended reals commutes with finite sums. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- THE LAW. For two rows of real numbers, the expanded square `Σ X² + Σ Y² − 2 Σ X·Y`, clamped below at zero, is
    the sum of the squared differences `Σ (X − Y)²`: the expansion is the binomial formula term by term, and the
    clamp is idle because a sum of squares is nonnegative. -/
theorem gram_eq {n : ℕ} (X Y : Fin n → EReal) (hX : ∀ k, ∃ r : ℝ, X k = r) (hY : ∀ k, ∃ r : ℝ, Y k = r) :
    max (((∑ k, X k * X k) + (∑ k, Y k * Y k)) - ((2 : ℝ) : EReal) * ∑ k, X k * Y k) 0
      = ∑ k, (X k - Y k) * (X k - Y k) := by
  choose a ha using hX
  choose b hb using hY
  have hreal : (∑ k, a k * a k) + (∑ k, b k * b k) - 2 * ∑ k, a k * b k = ∑ k, (a k - b k) * (a k - b k) := by
    rw [Finset.mul_sum, ← Finset.sum_add_distrib, ← Finset.sum_sub_distrib]
    exact Finset.sum_congr rfl fun k _ => by ring
  have hnn : (0 : ℝ) ≤ ∑ k, (a k - b k) * (a k - b k) := Finset.sum_nonneg fun k _ => mul_self_nonneg _
  simp only [ha, hb, ← EReal.coe_mul, ← EReal.coe_sub, ← coe_sum, ← EReal.coe_add]
  rw [hreal, ← EReal.coe_zero]
  exact max_eq_left (EReal.coe_le_coe_iff.2 hnn)

/-- The float word `0x40000000` denotes the real number 2. -/
theorem ofBits_two : Ideal.ofBits .f32 0x40000000#32 = ((2 : ℝ) : EReal) := by
  simp [Ideal.ofBits, Ideal.ieee, -EReal.coe_mul]; norm_num

end Cert.SqDist

end
-- ==== Proof.RefDist.lean ====
/-
  The reference program computes `pairDist`.

  Its operations, read one at a time at an index: the two arguments are laid out along a new middle and a new
  leading axis, repeated to a common shape [2048, 2048, 64], subtracted, squared, summed over the last axis from
  the initial value zero, and rooted. At entry `(i, j)` the term under the sum reads `x` at row `i` and `y`
  at row `j`, both at the summation index `k`.
-/
import proofs.«149132_j32633161515324_2_alg».proof.Proof.Gen.ReferenceIdeal.Read
import proofs.«149132_j32633161515324_2_alg».proof.Proof.SqDist

noncomputable section

namespace Cert.ReferenceIdeal.RefValue

open Idealize.ShloMosaic Idealize.ShloMosaic.ValueIdx Cert.ReferenceIdeal Cert.ReferenceIdeal.Read Cert.SqDist

/-- The reference's result, as a function of its two arguments, is the distance matrix of their rows. -/
theorem ref_eq (x0 x1 : (⟨S2048x64, .f32⟩ : BufTy).Contents (Elt Ideal)) :
    val_main_v7 (F := Ideal) x0 x1 = pairDist x0 x1 := by
  funext i
  have e0 : ∀ k : Fin 64, idx_main_v0 (idx_main_v2 (idx_main_v6 i k)) = ix2 (i 0) k := fun k =>
    funext fun a => Fin.ext (by match a with | ⟨0, _⟩ => rfl | ⟨1, _⟩ => rfl)
  have e1 : ∀ k : Fin 64, idx_main_v1 (idx_main_v3 (idx_main_v6 i k)) = ix2 (i 1) k := fun k =>
    funext fun a => Fin.ext (by match a with | ⟨0, _⟩ => rfl | ⟨1, _⟩ => rfl)
  rw [val_main_v7_apply, val_main_v6_apply]
  simp only [val_main_v5_apply, val_main_v4_apply, val_main_v2_apply, val_main_v3_apply, val_main_v0_apply,
    val_main_v1_apply, val_main_cst_apply, e0, e1, Ideal.hostUnary_sqrt_def, Ideal.ofBits_def, Ideal.ofBits_zero_f32,
    zero_add, Ideal.subf_def, Ideal.mulf_def]
  rfl

end Cert.ReferenceIdeal.RefValue

end
-- ==== Proof.Finite.lean ====
/-
  What the precondition says: every entry of both arrays is a real number.

  The precondition is the conjunction of two tests, one per array, that every entry's absolute value is below +∞.
  On the extended reals the absolute value of either infinity is +∞, so an entry that passes the test is neither:
  it is a real number.
-/
import proofs.«149132_j32633161515324_2_alg».proof.Pre_finite_inputs
import Idealize.ShloMosaic.Lib.ReduceAll
import Idealize.ShloMosaic.Lib.ValueIdx
import Idealize.ShloMosaic.PureOps.Ideal

noncomputable section

namespace Cert.Pre_finite_inputs.Real

open Idealize.ShloMosaic Cert.Pre_finite_inputs

instance : Subsingleton S_.Idx := ⟨fun a b => funext fun d => d.elim0⟩

/-- The float word `0x7F800000` denotes +∞. -/
theorem ofBits_inf : Ideal.ofBits .f32 0x7F800000#32 = ⊤ := by
  simp [Ideal.ofBits, Ideal.ieee]

/-- An extended real whose absolute value `max x (−x)` is strictly below +∞ is a real number. -/
theorem real_of_abs_lt (x : EReal) (h : Ideal.cmp .olt (max x (-x)) (Ideal.ofBits .f32 0x7F800000#32) = 1#1) :
    ∃ r : ℝ, x = r := by
  rw [ofBits_inf] at h
  induction x using EReal.rec with
  | bot => simp [Ideal.cmp] at h
  | top => simp [Ideal.cmp] at h
  | coe r => exact ⟨r, rfl⟩

variable [Facts]

/-- Under the precondition every entry of the first array, and every entry of the second, is a real number. -/
theorem real_of_pre (x y : FVec Ideal S2048x64 .f32) (h : fn (F := Ideal) x y = fun _ => 1#1) :
    (∀ i, ∃ r : ℝ, x i = r) ∧ (∀ i, ∃ r : ℝ, y i = r) := by
  have h' := congrFun h ValueIdx.ix0
  dsimp only [fn] at h'
  obtain ⟨hx, hy⟩ := IntOp.andi_eq_one.1 h'
  exact ⟨fun i => real_of_abs_lt (x i) (Host.reduce_andi_all _ _ _ _ _ hx i),
    fun i => real_of_abs_lt (y i) (Host.reduce_andi_all _ _ _ _ _ hy i)⟩

end Cert.Pre_finite_inputs.Real

end
-- ==== Proof.LibColumns.lean ====
/-
  Two layout facts about a column of values, one per row.
-/
import Idealize.ShloMosaic.Lib.Pipeline.Value
import Idealize.ShloMosaic.Lib.ValueIdx
import Idealize.ShloMosaic.Lib.ValueLayout

set_option maxRecDepth 16384

noncomputable section

namespace Cert.GcnValue

open Idealize.ShloMosaic Idealize.ShloMosaic.ValueIdx

variable {α : Type}

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.GcnValue

end
-- ==== Proof.Payload.lean ====
/-
  What the kernel body stores, read at one entry of its 512 × 512 output block.

  From a block `x` of 512 rows of the first array and a block `y` of 512 rows of the second, the body forms the
  squared norms of the rows of each (a lane sum of the squares, kept as a column), the matrix of inner products
  `x · yᵀ` (one contraction over the 64 columns, into a zero accumulator), and stores
  `√(max((‖x p‖² + ‖y q‖²) − 2·⟨x p, y q⟩, 0))` at `(p, q)`: the norms of `x` repeated along the rows, those of
  `y` transposed to a row and repeated down the columns. When the two rows involved hold real numbers this is
  `√(Σ_k (x p k − y q k)²)` (`Cert.SqDist.gram_eq`).
-/
import proofs.«149132_j32633161515324_2_alg».proof.Proof.Gen.KernelIdeal.Skeleton
import proofs.«149132_j32633161515324_2_alg».proof.Proof.SqDist
import proofs.«149132_j32633161515324_2_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen Cert.SqDist

/-- The squared norms of the rows of a block, as a column: entry `(p, u)` is the sum over the 64 columns of the
    squares of row `p`. -/
theorem normCol_apply (x : FVec Ideal S512x64 .f32) (p : Fin 512) (u : Fin 1) :
    shapeCast S512x1 (multiReduction (F := Ideal) .add [1] S512 (mulf x x) 0x00000000#32 reduces_S512x64_S512 (.inl rfl) rfl)
        shapeCasts_S512_S512x1 (ix2 p u)
      = ∑ k : Fin 64, x (ix2 p k) * x (ix2 p k) := by
  refine (Cert.GcnValue.shapeCast_a_a1_apply _ shapeCasts_S512_S512x1 p u).trans ?_
  refine (Ideal.multiReduction_add_single (mulf x x) 0x00000000#32 reduces_S512x64_S512 (.inl rfl) rfl (ix1 p)).trans ?_
  show ∑ k : Fin 64, mulf x x (reduces_S512x64_S512.lift (ix1 p) k) = _
  refine Finset.sum_congr rfl fun k _ => ?_
  have e : reduces_S512x64_S512.lift (ix1 p) k = ix2 p k :=
    funext fun a => Fin.ext (by match a with | ⟨0, _⟩ => rfl | ⟨1, _⟩ => rfl)
  rw [e]
  rfl

/-- The inner products of the rows of two blocks: entry `(p, q)` of the contraction over the columns, into a zero
    accumulator, is the sum over the 64 columns of the products of row `p` of the first and row `q` of the second. -/
theorem gram_apply (x y : FVec Ideal S512x64 .f32) (p q : Fin 512) :
    matmul (F := Ideal) dot_S512x64_S512x64_S512x512_1_1_0_0_n_n none x y (constant S512x512 .f32 0x00000000#32) (ix2 p q)
      = ∑ k : Fin 64, x (ix2 p k) * y (ix2 q k) := by
  refine (Ideal.matmul_constant_zero_apply dot_S512x64_S512x64_S512x512_1_1_0_0_n_n none x y (ix2 p q)).trans ?_
  rw [← Equiv.sum_comp (contrEquiv1 dot_S512x64_S512x64_S512x512_1_1_0_0_n_n 64 rfl rfl).symm]
  refine Finset.sum_congr rfl fun k _ => ?_
  have ck := contrEquiv1_symm_val dot_S512x64_S512x64_S512x512_1_1_0_0_n_n 64 rfl rfl k
  have l : dot_S512x64_S512x64_S512x512_1_1_0_0_n_n.lhsIdx (ix2 p q) ((contrEquiv1 _ 64 rfl rfl).symm k) = ix2 p k := by
    funext ax; apply Fin.ext
    match ax with
    | ⟨0, _⟩ => simp [DotDims.lhsIdx, dot_S512x64_S512x64_S512x512_1_1_0_0_n_n]; rfl
    | ⟨1, _⟩ => simp [DotDims.lhsIdx, dot_S512x64_S512x64_S512x512_1_1_0_0_n_n]; exact ck
  have r : dot_S512x64_S512x64_S512x512_1_1_0_0_n_n.rhsIdx (ix2 p q) ((contrEquiv1 _ 64 rfl rfl).symm k) = ix2 q k := by
    funext ax; apply Fin.ext
    match ax with
    | ⟨0, _⟩ => simp [DotDims.rhsIdx, dot_S512x64_S512x64_S512x512_1_1_0_0_n_n]; rfl
    | ⟨1, _⟩ => simp [DotDims.rhsIdx, dot_S512x64_S512x64_S512x512_1_1_0_0_n_n]; exact ck
  rw [l, r]

/-- THE BODY'S STORED VALUE at entry `(p, q)` of its block, when row `p` of the first block and row `q` of the
    second hold real numbers: the root of the sum of the squared differences of the two rows. -/
theorem pay_apply (x0 x1 : FVec Ideal S512x64 .f32) (p q : Fin 512)
    (h0 : ∀ k : Fin 64, ∃ r : ℝ, x0 (ix2 p k) = r) (h1 : ∀ k : Fin 64, ∃ r : ℝ, x1 (ix2 q k) = r) :
    k0_pay1 (F := Ideal) x0 x1 (ix2 p q)
      = Ideal.sqrt (∑ k : Fin 64, (x0 (ix2 p k) - x1 (ix2 q k)) * (x0 (ix2 p k) - x1 (ix2 q k))) := by
  unfold k0_pay1
  show Ideal.sqrt (max ((broadcastTo S512x512 _ _ (ix2 p q) + broadcastTo S512x512 _ _ (ix2 p q))
      - Ideal.ofBits .f32 0x40000000#32 * matmul (F := Ideal) _ none x0 x1 _ (ix2 p q)) (Ideal.ofBits .f32 0x00000000#32)) = _
  rw [Cert.GcnValue.broadcastTo_a1_ab_apply, broadcastTo_1b_ab_apply, transpose_ix2_apply, normCol_apply, normCol_apply,
    gram_apply, ofBits_two, Ideal.ofBits_zero_f32, gram_eq _ _ h0 h1]

end Cert.KernelIdeal.Body

end
-- ==== Proof.Whole.lean ====
/-
  From blocks to the array: what the kernel's result array holds after the run.

  The 2048 × 2048 result is written in 16 blocks of 512 × 512, one per point `(a, b)` of a 4 × 4 grid. At that
  point the body reads rows `512·a … 512·a + 511` of the first array and rows `512·b … 512·b + 511` of the
  second (all 64 columns of each), and entry `(p, q)` of what it stores depends on row `p` of the one block and
  row `q` of the other only. So the block written at `(a, b)` is the restriction of the distance matrix
  `Cert.SqDist.pairDist` to rows `512·a + p` and columns `512·b + q`, provided the entries of both arrays are
  real numbers; the 16 blocks tile the array, hence it ends holding the whole distance matrix.
-/
import proofs.«149132_j32633161515324_2_alg».proof.Proof.Gen.KernelIdeal.Value
import proofs.«149132_j32633161515324_2_alg».proof.Proof.Payload
import proofs.«149132_j32633161515324_2_alg».proof.Proof.SqDist

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.SqDist
open Idealize.ShloMosaic.Pipeline (Dat)

variable (m : (ℓ : Loc nD τ sig) → Buf (Elt Ideal) ℓ) (ρ : Dev nD → PrngReg)

/-- Every entry of a 2048 × 64 array is a real number. -/
def RealEntries (X : S2048x64.Idx → EReal) : Prop := ∀ i, ∃ r : ℝ, X i = r

theorem zero_offsets : (![0, 0] : Fin 2 → Nat) = fun _ => 0 := funext fun a => by fin_cases a <;> rfl

/-- The index maps, decided over the 16 grid points: the first input's block moves with the output's block ROW, the
    second input's with the output's block COLUMN, both inputs keep all their columns, and the output's block
    indices stay below 4. -/
theorem index_maps : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 3 ∧ win0_2.index t (1 : Fin 2) ≤ 3 :=
  (by decide +kernel : ∀ t : Fin grid0.N, _)

/-- Every pair of a block row and a block column is some grid point's. -/
theorem index_onto : ∀ (q0 q1 : Fin 4), ∃ t : Fin cfg0.N, win0_2.index t = ![q0.val, q1.val] :=
  (by decide +kernel : ∀ (q0 q1 : Fin 4), ∃ t : Fin grid0.N, win0_2.index t = ![q0.val, q1.val])

/-- One entry of one block: if row `p` of the first block is row `a` of the array `X`, and row `q` of the second
    block is row `b` of the array `Y`, and both arrays hold real numbers, then the body's stored value at `(p, q)`
    is the distance matrix of `X` and `Y` at `(a, b)`. -/
theorem block_entry (x0 x1 : FVec Ideal S512x64 .f32) (X Y : S2048x64.Idx → EReal) (p q : Fin 512) (a b : Fin 2048)
    (hx0 : ∀ k : Fin 64, x0 (ix2 p k) = X (ix2 a k)) (hx1 : ∀ k : Fin 64, x1 (ix2 q k) = Y (ix2 b k))
    (hX : ∀ i, ∃ r : ℝ, X i = r) (hY : ∀ i, ∃ r : ℝ, Y i = r) :
    k0_pay1 (F := Ideal) x0 x1 (ix2 p q) = pairDist X Y (ix2 a b) := by
  rw [Cert.KernelIdeal.Body.pay_apply x0 x1 p q (fun k => by rw [hx0]; exact hX _) (fun k => by rw [hx1]; exact hY _)]
  simp only [hx0, hx1]
  rfl

/-- WHAT POINT `t` WRITES BACK is block `t` of the distance matrix of the two argument arrays, when their entries
    are real numbers. -/
theorem flushed_eq (c : Dev nD)
    (hx : RealEntries (V m c main_arg0))
    (hy : RealEntries (V m c main_arg1)) (t : Fin cfg0.N) :
    (dats m 0 c).flushed 2 t
      = ((cfg0.win 2).blk t).view.read (Elt Ideal) (pairDist (V m c main_arg0) (V m c main_arg1)) := by
  rw [Cert.KernelIdeal.Value.flushed2]
  unfold out0_2
  rw [View.canon_unit_zero zero_offsets]
  simp only [View.ld_unit_zero (S := S512x64) zero_offsets]
  obtain ⟨e0, e1, e2, e3, e4, e5⟩ := index_maps t
  funext j
  obtain ⟨p, q, rfl⟩ : ∃ (p q : Fin 512), j = ix2 p q := ⟨j 0, j 1, eq_ix2 j⟩
  show k0_pay1 (F := Ideal) (iblk m c 0 t) (iblk m c 1 t) (ix2 p q)
    = pairDist (V m c main_arg0) (V m c main_arg1) (((cfg0.win 2).blk t).view.emb (ix2 p q))
  have hp : p.val < 512 := p.isLt
  have hq : q.val < 512 := q.isLt
  refine (block_entry (iblk m c 0 t) (iblk m c 1 t) (V m c main_arg0) (V m c main_arg1) p q
    ⟨win0_2.index t (0 : Fin 2) * 512 + p.val, by omega⟩ ⟨win0_2.index t (1 : Fin 2) * 512 + q.val, by omega⟩
    (fun k => ?_) (fun k => ?_) hx hy).trans ?_
  · have hk : k.val < 64 := k.isLt
    show V m c main_arg0 (((cfg0.win 0).blk t).view.emb (ix2 p k)) = V m c main_arg0 _
    refine congrArg (V m c main_arg0) (funext fun ax => Fin.ext ?_)
    match ax with
    | ⟨0, _⟩ => show win0_0.index t (0 : Fin 2) * 512 + 1 * p.val = win0_2.index t (0 : Fin 2) * 512 + p.val; omega
    | ⟨1, _⟩ => show win0_0.index t (1 : Fin 2) * 64 + 1 * k.val = k.val; omega
  · have hk : k.val < 64 := k.isLt
    show V m c main_arg1 (((cfg0.win 1).blk t).view.emb (ix2 q k)) = V m c main_arg1 _
    refine congrArg (V m c main_arg1) (funext fun ax => Fin.ext ?_)
    match ax with
    | ⟨0, _⟩ => show win0_1.index t (0 : Fin 2) * 512 + 1 * q.val = win0_2.index t (1 : Fin 2) * 512 + q.val; omega
    | ⟨1, _⟩ => show win0_1.index t (1 : Fin 2) * 64 + 1 * k.val = k.val; omega
  · refine congrArg (pairDist (V m c main_arg0) (V m c main_arg1)) (funext fun ax => Fin.ext ?_)
    match ax with
    | ⟨0, _⟩ => show win0_2.index t (0 : Fin 2) * 512 + p.val = win0_2.index t (0 : Fin 2) * 512 + 1 * p.val; omega
    | ⟨1, _⟩ => show win0_2.index t (1 : Fin 2) * 512 + q.val = win0_2.index t (1 : Fin 2) * 512 + 1 * q.val; omega

/-- An index of the result array is in point `t`'s block iff each coordinate is in the block's range on its axis. -/
theorem mem_blk (t : Fin cfg0.N) (i : S2048x2048.Idx) :
    i ∈ ((cfg0.win 2).blk t).view.set ↔ ∀ a : Fin 2, win0_2.index t a * S512x512.size a ≤ (i a).val
      ∧ (i a).val < win0_2.index t a * S512x512.size a + S512x512.size a := by
  show i ∈ ((View.whole main_v0).slice (win0_2.rect t)).set ↔ _
  rw [View.set_slice_whole, Rect.mem_set_unit]
  exact Iff.rfl

/-- THE BLOCKS TILE THE ARRAY: entry `(r, s)` lies in the block of the point whose block row is `r / 512` and whose
    block column is `s / 512`. -/
theorem cover (i : S2048x2048.Idx) :
    ∃ t : Fin cfg0.N, (cfg0.win 2).flush t = true ∧ i ∈ ((cfg0.win 2).blk t).view.set := by
  have hi0 : (i 0).val < 2048 := (i 0).isLt
  have hi1 : (i 1).val < 2048 := (i 1).isLt
  obtain ⟨t, ht⟩ := index_onto ⟨(i 0).val / 512, by omega⟩ ⟨(i 1).val / 512, by omega⟩
  have q0 : win0_2.index t (0 : Fin 2) = (i 0).val / 512 := congrFun ht 0
  have q1 : win0_2.index t (1 : Fin 2) = (i 1).val / 512 := congrFun ht 1
  refine ⟨t, flush0_2 t, ?_⟩
  rw [mem_blk]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 512 ≤ (i 1).val ∧ (i 1).val < win0_2.index t (1 : Fin 2) * 512 + 512
    omega

/-- THE RESULT ARRAY after the run is the distance matrix of the two argument arrays, when their entries are real
    numbers. -/
theorem final (c : Dev nD)
    (hx : RealEntries (V m c main_arg0))
    (hy : RealEntries (V m c main_arg1)) :
    (dats m 0 c).arrAt 2 cfg0.N = pairDist (V m c main_arg0) (V m c main_arg1) :=
  (dats m 0 c).arrAt_eq_of_cover 2 (pairDist (V m c main_arg0) (V m c main_arg1))
    (fun t _ => flushed_eq m c hx hy t) cover

/-- The run, read: from a memory whose two argument arrays hold real numbers, every weakly fair execution ends with
    the result array at the distance matrix of the arguments and the arguments unchanged. -/
theorem run
    (hreal : ∀ c : Dev nD,
      RealEntries (m ((c.tc : Thread nD τ).loc main_arg0)) ∧ RealEntries (m ((c.tc : Thread nD τ).loc main_arg1))) :
    θ_run defs (onTc (τ := τ) (main (F := Ideal))) ⟨m, fun _ => 0, ρ⟩ fun r => ∀ c : Dev nD,
      r.2.mem ((c.tc : Thread nD τ).loc main_v0)
        = pairDist (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final m c (hreal c).1 (hreal c).2), (h c).2⟩)
    (Cert.KernelIdeal.Value.run_blocks m ρ)

end Cert.KernelIdeal.Whole

end
-- ==== Proof.lean ====
/-
  The certificate of a pairwise-distance kernel.

  Two arrays `x`, `y` of 2048 rows and 64 columns go in; the 2048 × 2048 matrix of the Euclidean distances between
  their rows comes out. The reference subtracts row from row, squares, sums over the 64 columns and takes the root.
  The kernel works block by block on a 4 × 4 grid: at each point it takes 512 rows of each array, forms the squared
  norms of the rows and the matrix of their inner products, and stores `√(max(‖x i‖² + ‖y j‖² − 2⟨x i, y j⟩, 0))`.

  At the ideal values the two agree entry by entry as soon as the entries of `x` and `y` are real numbers, which
  is what the precondition says (`Cert.Pre_finite_inputs.Real.real_of_pre`): the binomial formula turns the
  expanded form into the sum of the squared differences, that sum is nonnegative, so the clamp at zero is idle, and
  the same root is taken on both sides (`Cert.SqDist.gram_eq`). The kernel's 16 blocks tile the result array
  (`Cert.KernelIdeal.Whole.final`), and the reference's operations read at an index give the same function
  (`Cert.ReferenceIdeal.RefValue.ref_eq`). The idealization rewrote nothing in the kernel, so there is nothing to
  preserve; the three frames are the programs' runs with the results forgotten.
-/
import proofs.«149132_j32633161515324_2_alg».proof.Defs
import proofs.«149132_j32633161515324_2_alg».proof.Proof.Gen.Kernel
import proofs.«149132_j32633161515324_2_alg».proof.Proof.Gen.Kernel.Skeleton
import proofs.«149132_j32633161515324_2_alg».proof.Proof.Gen.Kernel.Launch
import proofs.«149132_j32633161515324_2_alg».proof.Proof.Gen.Kernel.Points
import proofs.«149132_j32633161515324_2_alg».proof.Proof.Gen.Kernel.Frame
import proofs.«149132_j32633161515324_2_alg».proof.Proof.Gen.KernelIdeal
import proofs.«149132_j32633161515324_2_alg».proof.Proof.Gen.KernelIdeal.Skeleton
import proofs.«149132_j32633161515324_2_alg».proof.Proof.Gen.KernelIdeal.Launch
import proofs.«149132_j32633161515324_2_alg».proof.Proof.Gen.KernelIdeal.Points
import proofs.«149132_j32633161515324_2_alg».proof.Proof.Gen.KernelIdeal.Frame
import proofs.«149132_j32633161515324_2_alg».proof.Proof.Gen.ReferenceIdeal
import proofs.«149132_j32633161515324_2_alg».proof.Proof.Gen.Pre_finite_inputs
import proofs.«149132_j32633161515324_2_alg».proof.Proof.Gen.KernelIdeal.Value
import proofs.«149132_j32633161515324_2_alg».proof.Proof.Gen.ReferenceIdeal.Run
import proofs.«149132_j32633161515324_2_alg».proof.Proof.Gen.ReferenceIdeal.Read
import proofs.«149132_j32633161515324_2_alg».proof.Proof.SqDist
import proofs.«149132_j32633161515324_2_alg».proof.Proof.RefDist
import proofs.«149132_j32633161515324_2_alg».proof.Proof.Finite
import proofs.«149132_j32633161515324_2_alg».proof.Proof.Whole
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does the kernel read at the ideal values. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments as they were: its run with the result forgotten. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the two arrays, whose entries are real numbers by the precondition, both programs
    end with the distance matrix of the arrays' rows in their result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hreal := fun c => Cert.Pre_finite_inputs.Real.real_of_pre _ _ (hpre c)
  refine ⟨fun c => Cert.SqDist.pairDist (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ hreal, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v7_eq, Cert.ReferenceIdeal.RefValue.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
